-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel

variable [Facts]

def fn {F : FTy → Type} [FloatOps F] (main_arg0 : FVec F S16x1024x768 .f32) (main_arg1 : FVec F S16x1024x768 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S16x1024x768 .f32 := Host.absf main_arg1
  let main_cst_0 : FVec F S_ .f32 := constant S_ .f32 0x7F800000#32
  let main_v5 : FVec F S16x1024x768 .f32 := broadcastInDim S16x1024x768 ![] bcast_S_S16x1024x768 main_cst_0
  let main_v6 : IVec S16x1024x768 1 := cmpf .olt main_v4 main_v5
  let main_c_1 : IVec S_ 1 := constantI S_ 1 1#1
  let main_v7 : IVec S_ 1 := (fun x v => Host.reduce IntOp.andi x v reducesTo_S16x1024x768_S_d0_1_2 h_S_) main_v6 main_c_1
  let main_v8 : IVec S_ 1 := andi main_v3 main_v7
  main_v8
-- ==== Kernel.lean ====
abbrev S16x1024x768 : Shape := ⟨3, ![16, 1024, 768]⟩
abbrev S1x1024x768 : Shape := ⟨3, ![1, 1024, 768]⟩
abbrev S1x256x768 : Shape := ⟨3, ![1, 256, 768]⟩
abbrev S1024x768 : Shape := ⟨2, ![1024, 768]⟩
abbrev S256x768 : Shape := ⟨2, ![256, 768]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x768, .f32⟩
  | .hbm, ⟨1, _⟩ => ⟨S16x1024x768, .f32⟩
  | .hbm, ⟨2, _⟩ => ⟨S16x1024x768, .f32⟩
  | .hbm, ⟨3, _⟩ => ⟨S16x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x768, .f32⟩
  | .local _ .vmem, ⟨3, _⟩ => ⟨S1x1024x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0_5 : Index := 0#32
  let arg1 : BitVec 32 := BitVec.ofNat 32 (i 1).val
  let c256_i32 : BitVec 32 := 256#32
  let v0 : BitVec 32 := Scalar.muli arg1 c256_i32
  let v1 : BitVec 32 := v0
  let v8 : Index := Scalar.indexCast v1
  let c0_6 : Index := 0#32
  ![0, v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  h_S1x256x768 : 0 < S1x256x768.numel
  shapeCasts_S1x256x768_S256x768 : S1x256x768.ShapeCasts S256x768
  reduces_S256x1024_S256 : S256x1024.Reduces [1] S256
  shapeCasts_S256_S256x1 : S256.ShapeCasts S256x1
  broadcasts_S256x1_S256x1024 : S256x1.Broadcasts S256x1024
  reduces_S256x768_S256 : S256x768.Reduces [1] S256
  broadcasts_S256x1_S256x768 : S256x1.Broadcasts S256x768
  inb_S1x256x768_S1x256x768_0_0_0 : ∀ a, (![0, 0, 0] : Fin 3 → Nat) a + S1x256x768.size a ≤ S1x256x768.size a
  shapeCasts_S256x768_S1x256x768 : S256x768.ShapeCasts S1x256x768
  dot_S256x768_S1024x768_S256x1024_1_1_0_0_n_n_wf : DotDims.WF S256x768 S1024x768 S256x1024 [1] [1] [0] [0] [] []
  dot_S256x1024_S1024x768_S256x768_1_0_0_1_n_n_wf : DotDims.WF S256x1024 S1024x768 S256x768 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x768.size a ≤ S1x1024x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x1024x768.size a
  hwx0_0 : ∀ i : grid0.Coords, EltTy.bits .f32 = 32 ∨ (Rect.block (s := S16x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S16x1024x768.size a
  hwx0_1 : ∀ i : grid0.Coords, EltTy.bits .f32 = 32 ∨ (Rect.block (s := S16x1024x768) S1x1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x768.size a ≤ S16x1024x768.size a
  hwx0_2 : ∀ i : grid0.Coords, EltTy.bits .f32 = 32 ∨ (Rect.block (s := S16x1024x768) S1x256x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x768.size a ≤ S16x1024x768.size a
  hwx0_3 : ∀ i : grid0.Coords, EltTy.bits .f32 = 32 ∨ (Rect.block (s := S16x1024x768) S1x256x768.size (cc0_transform_3 i) (hinb0_3 i)).WholeWords (EltTy.packing .f32)

variable [Facts₀]

def dot_S256x768_S1024x768_S256x1024_1_1_0_0_n_n : DotDims S256x768 S1024x768 S256x1024 where
  lhsContracting := [1]
  rhsContracting := [1]
  lhsNonContracting := [0]
  rhsNonContracting := [0]
  lhsBatch := []
  rhsBatch := []
  wf := dot_S256x768_S1024x768_S256x1024_1_1_0_0_n_n_wf
def dot_S256x1024_S1024x768_S256x768_1_0_0_1_n_n : DotDims S256x1024 S1024x768 S256x768 where
  lhsContracting := [1]
  rhsContracting := [0]
  lhsNonContracting := [0]
  rhsNonContracting := [1]
  lhsBatch := []
  rhsBatch := []
  wf := dot_S256x1024_S1024x768_S256x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 58
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S16x1024x768, .f32⟩
  | .hbm, ⟨2, _⟩ => ⟨S16x1024x1024, .f32⟩
  | .hbm, ⟨3, _⟩ => ⟨S_, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S16x1024x1, .f32⟩
  | .hbm, ⟨9, _⟩ => ⟨S16x1024x1024, .f32⟩
  | .hbm, ⟨10, _⟩ => ⟨S16x1024x1024, .f32⟩
  | .hbm, ⟨11, _⟩ => ⟨S16x1024x1024, .f32⟩
  | .hbm, ⟨12, _⟩ => ⟨S_, .f32⟩
  | .hbm, ⟨13, _⟩ => ⟨S16x1024, .f32⟩
  | .hbm, ⟨14, _⟩ => ⟨S16x1024x1, .f32⟩
  | .hbm, ⟨15, _⟩ => ⟨S16x1024x1024, .f32⟩
  | .hbm, ⟨16, _⟩ => ⟨S16x1024x1024, .f32⟩
  | .hbm, ⟨17, _⟩ => ⟨S16x1024x768, .f32⟩
  | .hbm, ⟨18, _⟩ => ⟨S16x1024x768, .f32⟩
  | .hbm, ⟨19, _⟩ => ⟨S_, .f32⟩
  | .hbm, ⟨20, _⟩ => ⟨S16x1024, .f32⟩
  | .hbm, ⟨21, _⟩ => ⟨S16x1024x1, .f32⟩
  | .hbm, ⟨22, _⟩ => ⟨S16x1024x1, .f32⟩
  | .hbm, ⟨23, _⟩ => ⟨S_, .f32⟩
  | .hbm, ⟨24, _⟩ => ⟨S16x1024x1, .f32⟩
  | .hbm, ⟨25, _⟩ => ⟨S16x1024x1, .f32⟩
  | .hbm, ⟨26, _⟩ => ⟨S16x1024x768, .f32⟩
  | .hbm, ⟨27, _⟩ => ⟨S16x1024x768, .f32⟩
  | .hbm, ⟨28, _⟩ => ⟨S16x1024x768, .f32⟩
  | .hbm, ⟨29, _⟩ => ⟨S16x1024x1024, .f32⟩
  | .hbm, ⟨30, _⟩ => ⟨S_, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024x1, .f32⟩
  | .hbm, ⟨36, _⟩ => ⟨S16x1024x1024, .f32⟩
  | .hbm, ⟨37, _⟩ => ⟨S16x1024x1024, .f32⟩
  | .hbm, ⟨38, _⟩ => ⟨S16x1024x1024, .f32⟩
  | .hbm, ⟨39, _⟩ => ⟨S_, .f32⟩
  | .hbm, ⟨40, _⟩ => ⟨S16x1024, .f32⟩
  | .hbm, ⟨41, _⟩ => ⟨S16x1024x1, .f32⟩
  | .hbm, ⟨42, _⟩ => ⟨S16x1024x1024, .f32⟩
  | .hbm, ⟨43, _⟩ => ⟨S16x1024x1024, .f32⟩
  | .hbm, ⟨44, _⟩ => ⟨S16x1024x768, .f32⟩
  | .hbm, ⟨45, _⟩ => ⟨S16x1024x768, .f32⟩
  | .hbm, ⟨46, _⟩ => ⟨S_, .f32⟩
  | .hbm, ⟨47, _⟩ => ⟨S16x1024, .f32⟩
  | .hbm, ⟨48, _⟩ => ⟨S16x1024x1, .f32⟩
  | .hbm, ⟨49, _⟩ => ⟨S16x1024x1, .f32⟩
  | .hbm, ⟨50, _⟩ => ⟨S_, .f32⟩
  | .hbm, ⟨51, _⟩ => ⟨S16x1024x1, .f32⟩
  | .hbm, ⟨52, _⟩ => ⟨S16x1024x1, .f32⟩
  | .hbm, ⟨53, _⟩ => ⟨S16x1024x768, .f32⟩
  | .hbm, ⟨54, _⟩ => ⟨S16x1024x768, .f32⟩
  | .hbm, ⟨55, _⟩ => ⟨S16x1024x768, .f32⟩
  | .hbm, ⟨56, _⟩ => ⟨S16x1024x768, .f32⟩
  | .hbm, ⟨57, _⟩ => ⟨S16x1024x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  reducesTo_S16x1024x768_S16x1024_d2 : S16x1024x768.ReducesTo [2] S16x1024
  bcast_S_S16x1024x1 : S_.BroadcastsInDim S16x1024x1 (![] : Fin 0 → Fin S16x1024x1.rank)
  bcast_S16x1024x1_S16x1024x768_0_1_2 : S16x1024x1.BroadcastsInDim S16x1024x768 (![0, 1, 2] : Fin 3 → Fin S16x1024x768.rank)
  dot_S16x1024x768_S16x1024x768_S16x1024x1024_2_2_1_1_0_0_wf : DotDims.WF S16x1024x768 S16x1024x768 S16x1024x1024 [2] [2] [1] [1] [0] [0]
  dot_S16x1024x1024_S16x1024x768_S16x1024x768_2_1_1_2_0_0_wf : DotDims.WF S16x1024x1024 S16x1024x768 S16x1024x768 [2] [1] [1] [2] [0] [0]

variable [Facts₀]

def dot_S16x1024x768_S16x1024x768_S16x1024x1024_2_2_1_1_0_0 : DotDims S16x1024x768 S16x1024x768 S16x1024x1024 where
  lhsContracting := [2]
  rhsContracting := [2]
  lhsNonContracting := [1]
  rhsNonContracting := [1]
  lhsBatch := [0]
  rhsBatch := [0]
  wf := dot_S16x1024x768_S16x1024x768_S16x1024x1024_2_2_1_1_0_0_wf
def dot_S16x1024x1024_S16x1024x768_S16x1024x768_2_1_1_2_0_0 : DotDims S16x1024x1024 S16x1024x768 S16x1024x768 where
  lhsContracting := [2]
  rhsContracting := [1]
  lhsNonContracting := [1]
  rhsNonContracting := [2]
  lhsBatch := [0]
  rhsBatch := [0]
  wf := dot_S16x1024x1024_S16x1024x768_S16x1024x768_2_1_1_2_0_0_wf

class Facts : Prop extends Facts₀ where

variable [Facts]
-- ==== Proof.Spec.lean ====
/-
  Bidirectional cross attention with a doubled residual, as one function of the two argument arrays.

  For a batch entry, a query row `q` (768 features) and the 1024 key rows `kv` of the other image:
  the scores are the inner products of `q` with every key row; they are turned into softmax weights
  (subtract the row maximum, exponentiate, divide by the sum); the weighted combination of the key rows
  is scaled to unit Euclidean length (with a floor on the length); and twice the residual row is added.
  Everything is read on the extended reals, where every operation is the exact textbook one.
-/
import Idealize.ShloMosaic.PureOps.Ideal
import Idealize.ShloMosaic.PureOps.Ideal.Laws
import Idealize.ShloMosaic.Lib.ValueIdx

noncomputable section

namespace Cert.CrossAttention

open Idealize.ShloMosaic Idealize.ShloMosaic.ValueIdx

/-- The three float literals both programs spell: minus infinity (the neutral element of the row maximum),
    the floor `1e-12` on a row's length, and `2.0`. -/
abbrev negInf : EReal := Ideal.ofBits .f32 0xFF800000#32
abbrev lenFloor : EReal := Ideal.ofBits .f32 0x2B8CBCCC#32
abbrev twoLit : EReal := Ideal.ofBits .f32 0x40000000#32

/-- The literal `2.0` denotes the real number two. -/
theorem twoLit_eq : twoLit = ((2 : ℝ) : EReal) := by
  simp [twoLit, Ideal.ofBits, Ideal.ieee, -EReal.coe_mul]; norm_num

/-- Inner product of a query row with key row `j`. -/
def score (q : Fin 768 → EReal) (kv : Fin 1024 → Fin 768 → EReal) (j : Fin 1024) : EReal :=
  ∑ d : Fin 768, q d * kv j d

/-- The largest score of a row (a maximum started from minus infinity, and once more compared with it). -/
def peak (s : Fin 1024 → EReal) : EReal :=
  max negInf ((Finset.univ : Finset (Fin 1024)).fold max negInf s)

/-- The exponential of a score shifted by the row's largest one. -/
def shifted (s : Fin 1024 → EReal) (j : Fin 1024) : EReal := Ideal.exp (s j - peak s)

/-- The softmax weight of key `j`. -/
def weight (s : Fin 1024 → EReal) (j : Fin 1024) : EReal :=
  Ideal.div (shifted s j) (∑ j' : Fin 1024, shifted s j')

/-- The weighted combination of the key rows, feature `d`. -/
def blend (q : Fin 768 → EReal) (kv : Fin 1024 → Fin 768 → EReal) (d : Fin 768) : EReal :=
  ∑ j : Fin 1024, weight (score q kv) j * kv j d

/-- The combination divided by its Euclidean length, the length floored. -/
def unitRow (q : Fin 768 → EReal) (kv : Fin 1024 → Fin 768 → EReal) (d : Fin 768) : EReal :=
  Ideal.div (blend q kv d) (max (Ideal.sqrt (∑ d' : Fin 768, blend q kv d' * blend q kv d')) lenFloor)

/-- One output array: queries from `qs`, keys and the residual from `kvs`, batch entry by batch entry. -/
def attend (qs kvs : (⟨3, ![16, 1024, 768]⟩ : Shape).Idx → EReal) (i : (⟨3, ![16, 1024, 768]⟩ : Shape).Idx) : EReal :=
  unitRow (fun d => qs (ix3 (i 0) (i 1) d)) (fun j d => kvs (ix3 (i 0) j d)) (i 2) + twoLit * kvs i

/-- Adding a value twice is adding its double: on the extended reals this holds at the infinities too,
    because addition is associative and `2 · x = x + x` for every extended real `x`. -/
theorem add_twice (a x : EReal) : a + x + x = a + twoLit * x := by
  rw [add_assoc, twoLit_eq]
  congr 1
  induction x using EReal.rec with
  | bot => rw [EReal.coe_mul_bot_of_pos (by norm_num)]; rfl
  | top => rw [EReal.coe_mul_top_of_pos (by norm_num)]; rfl
  | coe r => rw [← EReal.coe_mul, ← EReal.coe_add, two_mul]

end Cert.CrossAttention

end
-- ==== Proof.RefValue.lean ====
/-
  The reference program computes the specification.

  Each of the two results of the reference is, index by index, the function `Cert.CrossAttention.attend` of the two
  argument arrays. The reference works in two symmetric halves; in each, at batch entry `b`, query row `n`:
  the first contraction gives the inner products of the query row with the 1024 key rows (`score`); the maximum
  over the last axis, started from minus infinity and compared with it once more, is the row's largest score (`peak`);
  subtracting it and exponentiating gives `shifted`; dividing by the row's sum gives the softmax `weight`; the
  second contraction is the weighted combination of the key rows (`blend`); dividing by the floored square root of
  the sum of its squares gives `unitRow`; and the residual row is then added twice, which is adding its double.
  Every stage is read at an index given by its coordinates, so each lemma says: this stage, at `(b, n, ·)`, is
  that term of the specification for the query row `(b, n)` and the key rows of batch entry `b`.
-/
import proofs.«158012_j39582418600143_1_alg».proof.Proof.Gen.ReferenceIdeal.Read
import proofs.«158012_j39582418600143_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.CrossAttention
open Idealize.ShloMosaic Idealize.ShloMosaic.ValueIdx

/-- An argument array: 16 batch entries of 1024 rows of 768 features, on the extended reals. -/
abbrev Arr : Type := (⟨S16x1024x768, .f32⟩ : BufTy).Contents (Elt Ideal)

/-- Row `n` of batch entry `b` of an array, as a query. -/
abbrev qrow (x : Arr) (b : Fin 16) (n : Fin 1024) : Fin 768 → EReal := fun d => x (ix3 b n d)
/-- The 1024 rows of batch entry `b` of an array, as keys. -/
abbrev krows (x : Arr) (b : Fin 16) : Fin 1024 → Fin 768 → EReal := fun j d => x (ix3 b j d)

section Stages

variable (x0 x1 : Arr)

/-! ### The half with queries from the first argument and keys from the second -/

/-- The first contraction is the inner product of a query row with a key row. -/
theorem fwd_score (b : Fin 16) (n j : Fin 1024) :
    val_main_v0 (F := Ideal) x0 x1 (ix3 b n j) = score (qrow x0 b n) (krows x1 b) j := by
  rw [val_main_v0_apply]
  refine Finset.sum_congr rfl fun k _ => ?_
  have el : lidx_main_v0 (ix3 b n j) k = ix3 b n k := funext fun a => Fin.ext (by match a with | ⟨0, _⟩ => rfl | ⟨1, _⟩ => rfl | ⟨2, _⟩ => rfl)
  have er : ridx_main_v0 (ix3 b n j) k = ix3 b j k := funext fun a => Fin.ext (by match a with | ⟨0, _⟩ => rfl | ⟨1, _⟩ => rfl | ⟨2, _⟩ => rfl)
  rw [el, er]

/-- The maximum over the last axis, started from minus infinity, is the fold of `max` over a row's scores:
    the indices above `(b, n)` are `(b, n, j)` for the 1024 values of `j`. -/
theorem fwd_rowmax (b : Fin 16) (n : Fin 1024) :
    val_main_v1 (F := Ideal) x0 x1 (ix2 b n)
      = (Finset.univ : Finset (Fin 1024)).fold max negInf (score (qrow x0 b n) (krows x1 b)) := by
  unfold val_main_v1
  refine (Host.reduce_eq_fold_single (FloatOps.maximumf (F := Ideal) (φ := .f32)) (val_main_v0 (F := Ideal) x0 x1)
    (val_main_cst (F := Ideal)) reducesTo_S16x1024x1024_S16x1024_d2 (by decide) h_S_ (ix2 b n)).trans ?_
  have e : (val_main_v0 (F := Ideal) x0 x1 ∘
      (Shape.Reduces.lift (s := S16x1024x1024) (t := S16x1024) (a := 2) (by decide) (ix2 b n)))
      = score (qrow x0 b n) (krows x1 b) := funext fun j => by
    show val_main_v0 (F := Ideal) x0 x1
      (Shape.Reduces.lift (s := S16x1024x1024) (t := S16x1024) (a := 2) (by decide) (ix2 b n) j) = _
    have ei : Shape.Reduces.lift (s := S16x1024x1024) (t := S16x1024) (a := 2) (by decide) (ix2 b n) j = ix3 b n j :=
      funext fun a => Fin.ext (by match a with | ⟨0, _⟩ => rfl | ⟨1, _⟩ => rfl | ⟨2, _⟩ => rfl)
    rw [ei]
    exact fwd_score x0 x1 b n j
  rw [e]
  rfl

/-- Compared once more with minus infinity, that is the row's largest score. -/
theorem fwd_peak (b : Fin 16) (n : Fin 1024) :
    val_main_v3 (F := Ideal) x0 x1 (ix2 b n) = peak (score (qrow x0 b n) (krows x1 b)) := by
  rw [val_main_v3_apply, val_main_v2_apply, val_main_cst_0_apply, fwd_rowmax]
  rfl

/-- The exponential of a score less the row's largest one. -/
theorem fwd_shifted (b : Fin 16) (n j : Fin 1024) :
    val_main_v7 (F := Ideal) x0 x1 (ix3 b n j) = shifted (score (qrow x0 b n) (krows x1 b)) j := by
  have e : idx_main_v4 (idx_main_v5 (ix3 b n j)) = ix2 b n := funext fun a => Fin.ext (by match a with | ⟨0, _⟩ => rfl | ⟨1, _⟩ => rfl)
  rw [val_main_v7_apply, val_main_v6_apply, val_main_v5_apply, val_main_v4_apply, e, fwd_peak, fwd_score]
  rfl

/-- The sum of a row's exponentials; the sum starts from the zero word. -/
theorem fwd_denom (b : Fin 16) (n : Fin 1024) :
    val_main_v8 (F := Ideal) x0 x1 (ix2 b n) = ∑ j : Fin 1024, shifted (score (qrow x0 b n) (krows x1 b)) j := by
  rw [val_main_v8_apply, val_main_cst_1_apply]
  show Ideal.ofBits .f32 0x00000000#32 + _ = _
  rw [Ideal.ofBits_zero_f32, zero_add]
  refine Finset.sum_congr rfl fun k _ => ?_
  have e : idx_main_v8 (ix2 b n) k = ix3 b n k := funext fun a => Fin.ext (by match a with | ⟨0, _⟩ => rfl | ⟨1, _⟩ => rfl | ⟨2, _⟩ => rfl)
  rw [e, fwd_shifted]

/-- The softmax weight. -/
theorem fwd_weight (b : Fin 16) (n j : Fin 1024) :
    val_main_v11 (F := Ideal) x0 x1 (ix3 b n j) = weight (score (qrow x0 b n) (krows x1 b)) j := by
  have e : idx_main_v9 (idx_main_v10 (ix3 b n j)) = ix2 b n := funext fun a => Fin.ext (by match a with | ⟨0, _⟩ => rfl | ⟨1, _⟩ => rfl)
  rw [val_main_v11_apply, val_main_v10_apply, val_main_v9_apply, e, fwd_denom, fwd_shifted]
  rfl

/-- The second contraction is the weighted combination of the key rows. -/
theorem fwd_blend (b : Fin 16) (n : Fin 1024) (d : Fin 768) :
    val_main_v12 (F := Ideal) x0 x1 (ix3 b n d) = blend (qrow x0 b n) (krows x1 b) d := by
  rw [val_main_v12_apply]
  refine Finset.sum_congr rfl fun k _ => ?_
  have el : lidx_main_v12 (ix3 b n d) k = ix3 b n k := funext fun a => Fin.ext (by match a with | ⟨0, _⟩ => rfl | ⟨1, _⟩ => rfl | ⟨2, _⟩ => rfl)
  have er : ridx_main_v12 (ix3 b n d) k = ix3 b k d := funext fun a => Fin.ext (by match a with | ⟨0, _⟩ => rfl | ⟨1, _⟩ => rfl | ⟨2, _⟩ => rfl)
  rw [el, er, fwd_weight]

/-- The sum of the squares of a combined row. -/
theorem fwd_sumsq (b : Fin 16) (n : Fin 1024) :
    val_main_v14 (F := Ideal) x0 x1 (ix2 b n)
      = ∑ d : Fin 768, blend (qrow x0 b n) (krows x1 b) d * blend (qrow x0 b n) (krows x1 b) d := by
  rw [val_main_v14_apply, val_main_cst_2_apply]
  show Ideal.ofBits .f32 0x00000000#32 + _ = _
  rw [Ideal.ofBits_zero_f32, zero_add]
  refine Finset.sum_congr rfl fun k _ => ?_
  have e : idx_main_v14 (ix2 b n) k = ix3 b n k := funext fun a => Fin.ext (by match a with | ⟨0, _⟩ => rfl | ⟨1, _⟩ => rfl | ⟨2, _⟩ => rfl)
  rw [e, val_main_v13_apply, fwd_blend]
  rfl

/-- The floored Euclidean length of a combined row, kept on a unit axis. -/
theorem fwd_len (b : Fin 16) (n : Fin 1024) (z : Fin 1) :
    val_main_v18 (F := Ideal) x0 x1 (ix3 b n z)
      = max (Ideal.sqrt (∑ d : Fin 768, blend (qrow x0 b n) (krows x1 b) d * blend (qrow x0 b n) (krows x1 b) d))
          lenFloor := by
  have e : idx_main_v15 (ix3 b n z) = ix2 b n := funext fun a => Fin.ext (by match a with | ⟨0, _⟩ => rfl | ⟨1, _⟩ => rfl)
  rw [val_main_v18_apply, val_main_v16_apply, val_main_v15_apply, e, fwd_sumsq, val_main_v17_apply, val_main_cst_3_apply]
  rfl

/-- The combined row scaled to unit length. -/
theorem fwd_unit (b : Fin 16) (n : Fin 1024) (d : Fin 768) :
    val_main_v20 (F := Ideal) x0 x1 (ix3 b n d) = unitRow (qrow x0 b n) (krows x1 b) d := by
  have e : idx_main_v19 (ix3 b n d) = ix3 b n (0 : Fin 1) := funext fun a => Fin.ext (by match a with | ⟨0, _⟩ => rfl | ⟨1, _⟩ => rfl | ⟨2, _⟩ => rfl)
  rw [val_main_v20_apply, val_main_v19_apply, e, fwd_len, fwd_blend]
  rfl

/-! ### The half with queries from the second argument and keys from the first -/

/-- The first contraction is the inner product of a query row with a key row. -/
theorem bwd_score (b : Fin 16) (n j : Fin 1024) :
    val_main_v22 (F := Ideal) x0 x1 (ix3 b n j) = score (qrow x1 b n) (krows x0 b) j := by
  rw [val_main_v22_apply]
  refine Finset.sum_congr rfl fun k _ => ?_
  have el : lidx_main_v22 (ix3 b n j) k = ix3 b n k := funext fun a => Fin.ext (by match a with | ⟨0, _⟩ => rfl | ⟨1, _⟩ => rfl | ⟨2, _⟩ => rfl)
  have er : ridx_main_v22 (ix3 b n j) k = ix3 b j k := funext fun a => Fin.ext (by match a with | ⟨0, _⟩ => rfl | ⟨1, _⟩ => rfl | ⟨2, _⟩ => rfl)
  rw [el, er]

/-- The maximum over the last axis, started from minus infinity, is the fold of `max` over a row's scores:
    the indices above `(b, n)` are `(b, n, j)` for the 1024 values of `j`. -/
theorem bwd_rowmax (b : Fin 16) (n : Fin 1024) :
    val_main_v23 (F := Ideal) x0 x1 (ix2 b n)
      = (Finset.univ : Finset (Fin 1024)).fold max negInf (score (qrow x1 b n) (krows x0 b)) := by
  unfold val_main_v23
  refine (Host.reduce_eq_fold_single (FloatOps.maximumf (F := Ideal) (φ := .f32)) (val_main_v22 (F := Ideal) x0 x1)
    (val_main_cst_4 (F := Ideal)) reducesTo_S16x1024x1024_S16x1024_d2 (by decide) h_S_ (ix2 b n)).trans ?_
  have e : (val_main_v22 (F := Ideal) x0 x1 ∘
      (Shape.Reduces.lift (s := S16x1024x1024) (t := S16x1024) (a := 2) (by decide) (ix2 b n)))
      = score (qrow x1 b n) (krows x0 b) := funext fun j => by
    show val_main_v22 (F := Ideal) x0 x1
      (Shape.Reduces.lift (s := S16x1024x1024) (t := S16x1024) (a := 2) (by decide) (ix2 b n) j) = _
    have ei : Shape.Reduces.lift (s := S16x1024x1024) (t := S16x1024) (a := 2) (by decide) (ix2 b n) j = ix3 b n j :=
      funext fun a => Fin.ext (by match a with | ⟨0, _⟩ => rfl | ⟨1, _⟩ => rfl | ⟨2, _⟩ => rfl)
    rw [ei]
    exact bwd_score x0 x1 b n j
  rw [e]
  rfl

/-- Compared once more with minus infinity, that is the row's largest score. -/
theorem bwd_peak (b : Fin 16) (n : Fin 1024) :
    val_main_v25 (F := Ideal) x0 x1 (ix2 b n) = peak (score (qrow x1 b n) (krows x0 b)) := by
  rw [val_main_v25_apply, val_main_v24_apply, val_main_cst_5_apply, bwd_rowmax]
  rfl

/-- The exponential of a score less the row's largest one. -/
theorem bwd_shifted (b : Fin 16) (n j : Fin 1024) :
    val_main_v29 (F := Ideal) x0 x1 (ix3 b n j) = shifted (score (qrow x1 b n) (krows x0 b)) j := by
  have e : idx_main_v26 (idx_main_v27 (ix3 b n j)) = ix2 b n := funext fun a => Fin.ext (by match a with | ⟨0, _⟩ => rfl | ⟨1, _⟩ => rfl)
  rw [val_main_v29_apply, val_main_v28_apply, val_main_v27_apply, val_main_v26_apply, e, bwd_peak, bwd_score]
  rfl

/-- The sum of a row's exponentials; the sum starts from the zero word. -/
theorem bwd_denom (b : Fin 16) (n : Fin 1024) :
    val_main_v30 (F := Ideal) x0 x1 (ix2 b n) = ∑ j : Fin 1024, shifted (score (qrow x1 b n) (krows x0 b)) j := by
  rw [val_main_v30_apply, val_main_cst_6_apply]
  show Ideal.ofBits .f32 0x00000000#32 + _ = _
  rw [Ideal.ofBits_zero_f32, zero_add]
  refine Finset.sum_congr rfl fun k _ => ?_
  have e : idx_main_v30 (ix2 b n) k = ix3 b n k := funext fun a => Fin.ext (by match a with | ⟨0, _⟩ => rfl | ⟨1, _⟩ => rfl | ⟨2, _⟩ => rfl)
  rw [e, bwd_shifted]

/-- The softmax weight. -/
theorem bwd_weight (b : Fin 16) (n j : Fin 1024) :
    val_main_v33 (F := Ideal) x0 x1 (ix3 b n j) = weight (score (qrow x1 b n) (krows x0 b)) j := by
  have e : idx_main_v31 (idx_main_v32 (ix3 b n j)) = ix2 b n := funext fun a => Fin.ext (by match a with | ⟨0, _⟩ => rfl | ⟨1, _⟩ => rfl)
  rw [val_main_v33_apply, val_main_v32_apply, val_main_v31_apply, e, bwd_denom, bwd_shifted]
  rfl

/-- The second contraction is the weighted combination of the key rows. -/
theorem bwd_blend (b : Fin 16) (n : Fin 1024) (d : Fin 768) :
    val_main_v34 (F := Ideal) x0 x1 (ix3 b n d) = blend (qrow x1 b n) (krows x0 b) d := by
  rw [val_main_v34_apply]
  refine Finset.sum_congr rfl fun k _ => ?_
  have el : lidx_main_v34 (ix3 b n d) k = ix3 b n k := funext fun a => Fin.ext (by match a with | ⟨0, _⟩ => rfl | ⟨1, _⟩ => rfl | ⟨2, _⟩ => rfl)
  have er : ridx_main_v34 (ix3 b n d) k = ix3 b k d := funext fun a => Fin.ext (by match a with | ⟨0, _⟩ => rfl | ⟨1, _⟩ => rfl | ⟨2, _⟩ => rfl)
  rw [el, er, bwd_weight]

/-- The sum of the squares of a combined row. -/
theorem bwd_sumsq (b : Fin 16) (n : Fin 1024) :
    val_main_v36 (F := Ideal) x0 x1 (ix2 b n)
      = ∑ d : Fin 768, blend (qrow x1 b n) (krows x0 b) d * blend (qrow x1 b n) (krows x0 b) d := by
  rw [val_main_v36_apply, val_main_cst_7_apply]
  show Ideal.ofBits .f32 0x00000000#32 + _ = _
  rw [Ideal.ofBits_zero_f32, zero_add]
  refine Finset.sum_congr rfl fun k _ => ?_
  have e : idx_main_v36 (ix2 b n) k = ix3 b n k := funext fun a => Fin.ext (by match a with | ⟨0, _⟩ => rfl | ⟨1, _⟩ => rfl | ⟨2, _⟩ => rfl)
  rw [e, val_main_v35_apply, bwd_blend]
  rfl

/-- The floored Euclidean length of a combined row, kept on a unit axis. -/
theorem bwd_len (b : Fin 16) (n : Fin 1024) (z : Fin 1) :
    val_main_v40 (F := Ideal) x0 x1 (ix3 b n z)
      = max (Ideal.sqrt (∑ d : Fin 768, blend (qrow x1 b n) (krows x0 b) d * blend (qrow x1 b n) (krows x0 b) d))
          lenFloor := by
  have e : idx_main_v37 (ix3 b n z) = ix2 b n := funext fun a => Fin.ext (by match a with | ⟨0, _⟩ => rfl | ⟨1, _⟩ => rfl)
  rw [val_main_v40_apply, val_main_v38_apply, val_main_v37_apply, e, bwd_sumsq, val_main_v39_apply, val_main_cst_8_apply]
  rfl

/-- The combined row scaled to unit length. -/
theorem bwd_unit (b : Fin 16) (n : Fin 1024) (d : Fin 768) :
    val_main_v42 (F := Ideal) x0 x1 (ix3 b n d) = unitRow (qrow x1 b n) (krows x0 b) d := by
  have e : idx_main_v41 (ix3 b n d) = ix3 b n (0 : Fin 1) := funext fun a => Fin.ext (by match a with | ⟨0, _⟩ => rfl | ⟨1, _⟩ => rfl | ⟨2, _⟩ => rfl)
  rw [val_main_v42_apply, val_main_v41_apply, e, bwd_len, bwd_blend]
  rfl

end Stages

/-! ### The two results -/

/-- The second result: queries from the first argument, keys and the residual from the second. The residual is added
    twice, which is adding its double. -/
theorem out2_eq (x0 x1 : Arr) : val_main_v45 (F := Ideal) x0 x1 = attend x0 x1 := by
  funext i
  obtain ⟨b, n, d, rfl⟩ : ∃ (b : Fin 16) (n : Fin 1024) (d : Fin 768), i = ix3 b n d := ⟨i 0, i 1, i 2, eq_ix3 i⟩
  rw [val_main_v45_apply, val_main_v21_apply, fwd_unit]
  exact add_twice (unitRow (qrow x0 b n) (krows x1 b) d) (x1 (ix3 b n d))

/-- The first result: queries from the second argument, keys and the residual from the first. -/
theorem out1_eq (x0 x1 : Arr) : val_main_v44 (F := Ideal) x0 x1 = attend x1 x0 := by
  funext i
  obtain ⟨b, n, d, rfl⟩ : ∃ (b : Fin 16) (n : Fin 1024) (d : Fin 768), i = ix3 b n d := ⟨i 0, i 1, i 2, eq_ix3 i⟩
  rw [val_main_v44_apply, val_main_v43_apply, bwd_unit]
  exact add_twice (unitRow (qrow x1 b n) (krows x0 b) d) (x0 (ix3 b n d))

end Cert.ReferenceIdeal.RefValue

end
-- ==== Proof.KernelFound.lean ====
/-
  What the kernel body leaves in its two output blocks, as pure functions of the two input blocks.

  At a grid point the body holds the whole [1024, 768] block of each image for the point's batch entry, and
  reads from each of them, through a rectangle whose row offset depends on the point, the 256 rows of the
  point's tile. Its one store into each output block covers the block, so the block ends holding that store's
  value: for the first output the attention of the second image's tile rows over the first image's rows, plus
  twice the first image's tile rows; for the second output the same with the two images exchanged.
-/
import proofs.«158012_j39582418600143_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

theorem zero3 : (![0, 0, 0] : Fin 3 → Nat) = fun _ => 0 := funext fun a => by fin_cases a <;> rfl

/-- The 256 rows of a [1, 1024, 768] block that the point's tile names: rows `256 · (i 1)` onward. -/
abbrev tileRows (i : grid0.Coords) (x : Vec F S1x1024x768 .f32) : Vec F S1x256x768 .f32 :=
  View.ld x (Rect.unit (s := S1x1024x768) (k0_off1 i) S1x256x768.size (k0_off1_inb i))

/-- The first output block after the body: queries the second image's tile rows, keys and residual the first image. -/
theorem first_block (c : Dev nD) (i : grid0.Coords) (a2 : Memref sig .tc .vmem S1x1024x768 .f32) (h2 : a2.IsWhole)
    (a3 : Memref sig .tc .vmem S1x1024x768 .f32) (h3 : a3.IsWhole) (a4 : Memref sig .tc .vmem S1x256x768 .f32) (h4 : a4.IsWhole)
    (a5 : Memref sig .tc .vmem S1x256x768 .f32) (h5 : a5.IsWhole) (x0 x1 : Vec F S1x1024x768 .f32) :
    out0_A_2 c i a2 h2 a3 h3 a4 h4 a5 h5 x0 x1
      = k0_pay1 (k0_pay3 x0) (k0_pay4 (tileRows i x0)) (k0_pay6 (tileRows i x1)) := by
  unfold out0_A_2
  rw [View.read_writes_eq_canon _ _ _ (cover0_A_2 c i a2 h2 a3 h3 a4 h4 a5 h5 x0 x1)]
  unfold kernelRun0_A
  dsimp only
  sl_unfold_words
  rw [View.canon_unit_zero zero3]
  simp only [View.readAt_eq_ld, h2.read_unread, h3.read_unread, View.ld_unit_zero (S := S1x1024x768) zero3]
  rfl

/-- The second output block after the body: queries the first image's tile rows, keys and residual the second image. -/
theorem second_block (c : Dev nD) (i : grid0.Coords) (a2 : Memref sig .tc .vmem S1x1024x768 .f32) (h2 : a2.IsWhole)
    (a3 : Memref sig .tc .vmem S1x1024x768 .f32) (h3 : a3.IsWhole) (a4 : Memref sig .tc .vmem S1x256x768 .f32) (h4 : a4.IsWhole)
    (a5 : Memref sig .tc .vmem S1x256x768 .f32) (h5 : a5.IsWhole) (x0 x1 : Vec F S1x1024x768 .f32) :
    out0_A_3 c i a2 h2 a3 h3 a4 h4 a5 h5 x0 x1
      = k0_pay2 (k0_pay5 (tileRows i x1)) (k0_pay7 x1 (tileRows i x0)) (k0_pay8 (F := F)) := by
  unfold out0_A_3
  rw [View.read_writes_eq_canon _ _ _ (cover0_A_3 c i a2 h2 a3 h3 a4 h4 a5 h5 x0 x1)]
  unfold kernelRun0_A
  dsimp only
  sl_unfold_words
  rw [View.canon_unit_zero zero3]
  simp only [View.readAt_eq_ld, h2.read_unread, h3.read_unread, View.ld_unit_zero (S := S1x1024x768) zero3]
  rfl

end Cert.KernelIdeal.Found

end
-- ==== Proof.KernelTiles.lean ====
/-
  Where the blocks sit in the arrays.

  The grid has 64 points, `(b, q)` with `b` one of 16 batch entries and `q` one of 4 row tiles. Each input
  window's block at a point is the whole [1024, 768] slab of batch entry `b`; each output window's block is rows
  `256 q … 256 q + 255` of that slab; the rows the body slices out of an input block start at `256 q` too.
  The 64 output blocks are pairwise different and fill the [16, 1024, 768] array.
-/
import proofs.«158012_j39582418600143_1_alg».proof.Proof.Gen.KernelIdeal.Value
import proofs.«158012_j39582418600143_1_alg».proof.Proof.KernelFound
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

variable {F : FTy → Type} [FloatOps F]
variable (m : (ℓ : Loc nD τ sig) → Buf (Elt F) ℓ)

/-- The printed index maps, decided once over the 64 points: the input blocks follow the batch coordinate only,
    both output windows follow (batch, tile), and the tile coordinate is the grid's second coordinate. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_3.index t (0 : Fin 3) = win0_2.index t (0 : Fin 3) ∧ win0_3.index t (1 : Fin 3) = win0_2.index t (1 : Fin 3)
    ∧ win0_3.index t (2 : Fin 3) = 0 ∧ win0_2.index t (2 : Fin 3) = 0
    ∧ win0_2.index t (0 : Fin 3) ≤ 15 ∧ win0_2.index t (1 : Fin 3) ≤ 3
    ∧ (grid0.coords t (1 : Fin 2)).val = win0_2.index t (1 : Fin 3) :=
  (by decide +kernel : ∀ t : Fin grid0.N, _)

/-- Every (batch, tile) pair is some point's output block index. -/
theorem idx_onto : ∀ (b : Fin 16) (q : Fin 4), ∃ t : Fin cfg0.N, win0_2.index t = ![b.val, q.val, 0] :=
  (by decide +kernel : ∀ (b : Fin 16) (q : Fin 4), ∃ t : Fin grid0.N, win0_2.index t = ![b.val, q.val, 0])

/-- The body's row offsets at a point, in closed form. -/
theorem tile_off (t : Fin cfg0.N) : k0_off1 (grid0.coords t) = ![0, 256 * win0_2.index t (1 : Fin 3), 0] := by
  rw [k0_off1_eq, (idx_facts t).2.2.2.2.2.2.2.2.2.2.2.2]

/-- The first image's block at a point, at (0, k, d), is the array at (b, k, d). -/
theorem block0_apply (c : Dev nD) (t : Fin cfg0.N) (b : Fin 16) (hb : win0_2.index t (0 : Fin 3) = b.val)
    (k : Fin 1024) (d : Fin 768) :
    (iblk m c 0 t : Vec F S1x1024x768 .f32) (ix3 0 k d) = V m c main_arg0 (ix3 b k d) := by
  obtain ⟨e0, e1, e2, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * 0 = b.val; omega
  | ⟨1, _⟩ => show win0_0.index t (1 : Fin 3) * 1024 + 1 * k.val = k.val; omega
  | ⟨2, _⟩ => show win0_0.index t (2 : Fin 3) * 768 + 1 * d.val = d.val; omega

/-- The second image's block likewise. -/
theorem block1_apply (c : Dev nD) (t : Fin cfg0.N) (b : Fin 16) (hb : win0_2.index t (0 : Fin 3) = b.val)
    (k : Fin 1024) (d : Fin 768) :
    (iblk m c 1 t : Vec F S1x1024x768 .f32) (ix3 0 k d) = V m c main_arg1 (ix3 b k d) := by
  obtain ⟨-, -, -, e0, e1, e2, -⟩ := idx_facts t
  unfold iblk
  rw [View.read_apply]
  show V m c main_arg1 _ = V m c main_arg1 _
  congr 1
  funext a; apply Fin.ext
  match a with
  | ⟨0, _⟩ => show win0_1.index t (0 : Fin 3) * 1 + 1 * 0 = b.val; omega
  | ⟨1, _⟩ => show win0_1.index t (1 : Fin 3) * 1024 + 1 * k.val = k.val; omega
  | ⟨2, _⟩ => show win0_1.index t (2 : Fin 3) * 768 + 1 * d.val = d.val; omega

/-- The tile's rows of a block: row `r` of the tile is row `256 q + r` of the block. -/
theorem tileRows_apply (i : grid0.Coords) (x : Vec F S1x1024x768 .f32) (q : Nat) (hoff : k0_off1 i = ![0, 256 * q, 0])
    (r : Fin 256) (d : Fin 768) (h : 256 * q + r.val < 1024) :
    Found.tileRows i x (ix3 0 r d) = x (ix3 0 ⟨256 * q + r.val, h⟩ d) := by
  show x _ = x _
  congr 1
  funext a; apply Fin.ext
  have h0 : k0_off1 i 0 = 0 := by rw [hoff]; rfl
  have h1 : k0_off1 i 1 = 256 * q := by rw [hoff]; rfl
  have h2 : k0_off1 i 2 = 0 := by rw [hoff]; rfl
  match a with
  | ⟨0, _⟩ => show k0_off1 i 0 + 1 * 0 = 0; omega
  | ⟨1, _⟩ => show k0_off1 i 1 + 1 * r.val = 256 * q + r.val; omega
  | ⟨2, _⟩ => show k0_off1 i 2 + 1 * d.val = d.val; omega

/-- Where the first output's block at a point puts its element (0, r, d): row `256 q + r` of batch entry `b`. -/
theorem out2_emb (t : Fin cfg0.N) (b : Fin 16) (hb : win0_2.index t (0 : Fin 3) = b.val) (q : Nat)
    (hq : win0_2.index t (1 : Fin 3) = q) (r : Fin 256) (d : Fin 768) (h : 256 * q + r.val < 1024) :
    ((cfg0.win 2).blk t).view.emb (ix3 (0 : Fin 1) r d : S1x256x768.Idx) = (ix3 b ⟨256 * q + r.val, h⟩ d : S16x1024x768.Idx) := by
  obtain ⟨-, -, -, -, -, -, -, -, -, e2, -⟩ := idx_facts t
  funext a; apply Fin.ext
  match a with
  | ⟨0, _⟩ => show win0_2.index t (0 : Fin 3) * 1 + 1 * 0 = b.val; omega
  | ⟨1, _⟩ => show win0_2.index t (1 : Fin 3) * 256 + 1 * r.val = 256 * q + r.val; omega
  | ⟨2, _⟩ => show win0_2.index t (2 : Fin 3) * 768 + 1 * d.val = d.val; omega

/-- The second output's block sits at the same place of its own array. -/
theorem out3_emb (t : Fin cfg0.N) (b : Fin 16) (hb : win0_2.index t (0 : Fin 3) = b.val) (q : Nat)
    (hq : win0_2.index t (1 : Fin 3) = q) (r : Fin 256) (d : Fin 768) (h : 256 * q + r.val < 1024) :
    ((cfg0.win 3).blk t).view.emb (ix3 (0 : Fin 1) r d : S1x256x768.Idx) = (ix3 b ⟨256 * q + r.val, h⟩ d : S16x1024x768.Idx) := by
  obtain ⟨-, -, -, -, -, -, e0, e1, e2, -⟩ := idx_facts t
  funext a; apply Fin.ext
  match a with
  | ⟨0, _⟩ => show win0_3.index t (0 : Fin 3) * 1 + 1 * 0 = b.val; omega
  | ⟨1, _⟩ => show win0_3.index t (1 : Fin 3) * 256 + 1 * r.val = 256 * q + r.val; omega
  | ⟨2, _⟩ => show win0_3.index t (2 : Fin 3) * 768 + 1 * d.val = d.val; omega

/-- An index of the first output array is in point `t`'s block iff each coordinate is in the block's range. -/
theorem mem_blk2 (t : Fin cfg0.N) (i : S16x1024x768.Idx) :
    i ∈ ((cfg0.win 2).blk t).view.set ↔ ∀ a : Fin 3, win0_2.index t a * S1x256x768.size a ≤ (i a).val ∧ (i a).val < win0_2.index t a * S1x256x768.size a + S1x256x768.size a := by
  show i ∈ ((View.whole main_v0_0).slice (win0_2.rect t)).set ↔ _
  rw [View.set_slice_whole, Rect.mem_set_unit]
  exact Iff.rfl

/-- The same for the second output array. -/
theorem mem_blk3 (t : Fin cfg0.N) (i : S16x1024x768.Idx) :
    i ∈ ((cfg0.win 3).blk t).view.set ↔ ∀ a : Fin 3, win0_3.index t a * S1x256x768.size a ≤ (i a).val ∧ (i a).val < win0_3.index t a * S1x256x768.size a + S1x256x768.size a := by
  show i ∈ ((View.whole main_v0_1).slice (win0_3.rect t)).set ↔ _
  rw [View.set_slice_whole, Rect.mem_set_unit]
  exact Iff.rfl

/-- Every index (b, n, d) of the first output array is in the block of the point (b, n / 256), which writes back. -/
theorem cover2 (i : S16x1024x768.Idx) :
    ∃ t : Fin cfg0.N, (cfg0.win 2).flush t = true ∧ i ∈ ((cfg0.win 2).blk t).view.set := by
  have h0 : (i 0).val < 16 := (i 0).isLt
  have h1 : (i 1).val < 1024 := (i 1).isLt
  have h2 : (i 2).val < 768 := (i 2).isLt
  obtain ⟨t, ht⟩ := idx_onto ⟨(i 0).val, h0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 768 ≤ (i 2).val ∧ (i 2).val < win0_2.index t (2 : Fin 3) * 768 + 768; omega

/-- The same for the second output array. -/
theorem cover3 (i : S16x1024x768.Idx) :
    ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 768 := (i 2).isLt
  obtain ⟨t, ht⟩ := idx_onto ⟨(i 0).val, h0⟩ ⟨(i 1).val / 256, by omega⟩
  obtain ⟨-, -, -, -, -, -, e0, e1, e2, -⟩ := idx_facts t
  have q0 : win0_2.index t (0 : Fin 3) = (i 0).val := congrFun ht 0
  have q1 : win0_2.index t (1 : Fin 3) = (i 1).val / 256 := congrFun ht 1
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 768 ≤ (i 2).val ∧ (i 2).val < win0_3.index t (2 : Fin 3) * 768 + 768; omega

end Cert.KernelIdeal.Tiles

end
-- ==== Proof.PayloadValue.lean ====
/-
  The values the kernel body stores, read at one index, are the specification's.

  The body works on a block of 256 query rows against the 1024 key rows of the other image. Each stored value is a
  composition of: the product of query rows with key rows (the scores); per row, the maximum, the shifted
  exponentials, their sum and the quotient (the softmax weights); the product of the weights with the key rows (the
  weighted combination); and per row, the sum of squares, its square root floored, and the quotient (unit length).
  Each step is read at an index over variables, then the stored values are shown to be these steps composed.
  On the extended reals a change of float format is the identity, so the narrowing steps disappear.
-/
import proofs.«158012_j39582418600143_1_alg».proof.Proof.Gen.KernelIdeal.Skeleton
import proofs.«158012_j39582418600143_1_alg».proof.Proof.Spec
import Idealize.ShloMosaic.Lib.ValueLayout
import Idealize.ShloMosaic.Lib.ValueIdx
import Idealize.ShloMosaic.PureOps.Ideal.Laws

noncomputable section

namespace Cert.KernelIdeal.PayloadValue

open Cert.KernelIdeal Cert.KernelIdeal.Gen Idealize.ShloMosaic Idealize.ShloMosaic.ValueIdx
open Cert.CrossAttention

/-! ## Columns: a vector of row values as a one-column matrix, and that column spread along a row -/

/-- A vector `[256]` cast to a column `[256, 1]` reads, at `(r, u)`, the vector at `r`. -/
theorem col_cast_apply {α : Type} (x : S256.Idx → α) (h : S256.ShapeCasts S256x1) (r : Fin 256) (u : Fin 1) :
    shapeCast S256x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[256, 1]` broadcast to `[256, 1024]` reads, at `(r, j)`, the column at `(r, 0)`. -/
theorem col_bcast_1024_apply {α : Type} (x : S256x1.Idx → α) (h : S256x1.Broadcasts S256x1024) (r : Fin 256) (j : Fin 1024) :
    broadcastTo S256x1024 x h (ix2 r j) = x (ix2 r (0 : Fin 1)) :=
  broadcastTo_apply x h _ _ fun a => match a with
    | ⟨0, _⟩ => rfl
    | ⟨1, _⟩ => rfl

/-- A column `[256, 1]` broadcast to `[256, 768]` reads, at `(r, d)`, the column at `(r, 0)`. -/
theorem col_bcast_768_apply {α : Type} (x : S256x1.Idx → α) (h : S256x1.Broadcasts S256x768) (r : Fin 256) (d : Fin 768) :
    broadcastTo S256x768 x h (ix2 r d) = x (ix2 r (0 : Fin 1)) :=
  broadcastTo_apply x h _ _ fun a => match a with
    | ⟨0, _⟩ => rfl
    | ⟨1, _⟩ => rfl

/-! ## The index over a row with a column coordinate inserted -/

theorem lift_1024 (h : S256x1024.Reduces [1] S256) (r : Fin 256) (k : Fin 1024) :
    h.lift (ix1 r) k = ix2 r k :=
  funext fun c => Fin.ext (match c with
    | ⟨0, _⟩ => rfl
    | ⟨1, _⟩ => rfl)

theorem lift_768 (h : S256x768.Reduces [1] S256) (r : Fin 256) (k : Fin 768) :
    h.lift (ix1 r) k = ix2 r k :=
  funext fun c => Fin.ext (match c with
    | ⟨0, _⟩ => rfl
    | ⟨1, _⟩ => rfl)

/-! ## The two products -/

local notation "D₁" => dot_S256x768_S1024x768_S256x1024_1_1_0_0_n_n
local notation "D₂" => dot_S256x1024_S1024x768_S256x768_1_0_0_1_n_n

/-! The operand indices of the first product (rows by rows): at output `(r, j)` and contraction position `k`
    the left operand is read at `(r, k)` and the right at `(j, k)`. -/
theorem D₁_lhs0 (i : S256x1024.Idx) (q : (DotDims.contr D₁).Idx) : (DotDims.lhsIdx D₁ i q 0).val = (i 0).val := by
  unfold DotDims.lhsIdx
  rw [dif_neg (show ¬(0 : Fin S256x768.rank) ∈ DotDims.lhsBatch D₁ by decide),
    dif_pos (show (0 : Fin S256x768.rank) ∈ DotDims.lhsNonContracting D₁ by decide)]
  rfl
theorem D₁_lhs1 (i : S256x1024.Idx) (q : (DotDims.contr D₁).Idx) :
    (DotDims.lhsIdx D₁ i q 1).val = (q ⟨0, by decide⟩).val :=
  DotDims.lhsIdx_val_of_single D₁ rfl i q
theorem D₁_rhs0 (i : S256x1024.Idx) (q : (DotDims.contr D₁).Idx) : (DotDims.rhsIdx D₁ i q 0).val = (i 1).val := by
  unfold DotDims.rhsIdx
  rw [dif_neg (show ¬(0 : Fin S1024x768.rank) ∈ DotDims.rhsBatch D₁ by decide),
    dif_pos (show (0 : Fin S1024x768.rank) ∈ DotDims.rhsNonContracting D₁ by decide)]
  rfl
theorem D₁_rhs1 (i : S256x1024.Idx) (q : (DotDims.contr D₁).Idx) :
    (DotDims.rhsIdx D₁ i q 1).val = (q ⟨0, by decide⟩).val :=
  DotDims.rhsIdx_val_of_single D₁ rfl i q

/-! The operand indices of the second product (rows by columns): at output `(r, d)` and contraction position `k`
    the left operand is read at `(r, k)` and the right at `(k, d)`. -/
theorem D₂_lhs0 (i : S256x768.Idx) (q : (DotDims.contr D₂).Idx) : (DotDims.lhsIdx D₂ i q 0).val = (i 0).val := by
  unfold DotDims.lhsIdx
  rw [dif_neg (show ¬(0 : Fin S256x1024.rank) ∈ DotDims.lhsBatch D₂ by decide),
    dif_pos (show (0 : Fin S256x1024.rank) ∈ DotDims.lhsNonContracting D₂ by decide)]
  rfl
theorem D₂_lhs1 (i : S256x768.Idx) (q : (DotDims.contr D₂).Idx) :
    (DotDims.lhsIdx D₂ i q 1).val = (q ⟨0, by decide⟩).val :=
  DotDims.lhsIdx_val_of_single D₂ rfl i q
theorem D₂_rhs0 (i : S256x768.Idx) (q : (DotDims.contr D₂).Idx) :
    (DotDims.rhsIdx D₂ i q 0).val = (q ⟨0, by decide⟩).val :=
  DotDims.rhsIdx_val_of_single D₂ rfl i q
theorem D₂_rhs1 (i : S256x768.Idx) (q : (DotDims.contr D₂).Idx) : (DotDims.rhsIdx D₂ i q 1).val = (i 1).val := by
  unfold DotDims.rhsIdx
  rw [dif_neg (show ¬(1 : Fin S1024x768.rank) ∈ DotDims.rhsBatch D₂ by decide),
    dif_pos (show (1 : Fin S1024x768.rank) ∈ DotDims.rhsNonContracting D₂ by decide)]
  rfl

/-- Query rows against key rows. -/
def scores (q : FVec Ideal S256x768 .bf16) (kv : FVec Ideal S1024x768 .bf16) : FVec Ideal S256x1024 .f32 :=
  matmul D₁ none q kv (constant S256x1024 .f32 0x00000000#32)

/-- Entry `(r, j)` of the first product is the inner product of query row `r` with key row `j`. -/
theorem scores_apply (q : FVec Ideal S256x768 .bf16) (kv : FVec Ideal S1024x768 .bf16) (r : Fin 256) (j : Fin 1024) :
    scores q kv (ix2 r j) = ∑ d : Fin 768, q (ix2 r d) * kv (ix2 j d) := by
  unfold scores
  refine (Ideal.matmul_constant_zero_apply D₁ none q kv (ix2 r j)).trans ?_
  rw [← Equiv.sum_comp (contrEquiv1 D₁ 768 rfl rfl).symm]
  refine Finset.sum_congr rfl fun k _ => ?_
  have hk := contrEquiv1_symm_val D₁ 768 rfl rfl k
  have el : DotDims.lhsIdx D₁ (ix2 r j) ((contrEquiv1 D₁ 768 rfl rfl).symm k) = ix2 r k := funext fun a => Fin.ext (by
    match a with
    | ⟨0, _⟩ => exact D₁_lhs0 _ _
    | ⟨1, _⟩ => exact (D₁_lhs1 _ _).trans hk)
  have er : DotDims.rhsIdx D₁ (ix2 r j) ((contrEquiv1 D₁ 768 rfl rfl).symm k) = ix2 j k := funext fun a => Fin.ext (by
    match a with
    | ⟨0, _⟩ => exact D₁_rhs0 _ _
    | ⟨1, _⟩ => exact (D₁_rhs1 _ _).trans hk)
  rw [el, er]

/-- Weights against key rows: the weighted combination. -/
def combine (w : FVec Ideal S256x1024 .bf16) (kv : FVec Ideal S1024x768 .bf16) : FVec Ideal S256x768 .f32 :=
  matmul D₂ none w kv (constant S256x768 .f32 0x00000000#32)

/-- Entry `(r, d)` of the second product is the sum over the keys of the weight times the key's feature `d`. -/
theorem combine_apply (w : FVec Ideal S256x1024 .bf16) (kv : FVec Ideal S1024x768 .bf16) (r : Fin 256) (d : Fin 768) :
    combine w kv (ix2 r d) = ∑ j : Fin 1024, w (ix2 r j) * kv (ix2 j d) := by
  unfold combine
  refine (Ideal.matmul_constant_zero_apply D₂ none w kv (ix2 r d)).trans ?_
  rw [← Equiv.sum_comp (contrEquiv1 D₂ 1024 rfl rfl).symm]
  refine Finset.sum_congr rfl fun k _ => ?_
  have hk := contrEquiv1_symm_val D₂ 1024 rfl rfl k
  have el : DotDims.lhsIdx D₂ (ix2 r d) ((contrEquiv1 D₂ 1024 rfl rfl).symm k) = ix2 r k := funext fun a => Fin.ext (by
    match a with
    | ⟨0, _⟩ => exact D₂_lhs0 _ _
    | ⟨1, _⟩ => exact (D₂_lhs1 _ _).trans hk)
  have er : DotDims.rhsIdx D₂ (ix2 r d) ((contrEquiv1 D₂ 1024 rfl rfl).symm k) = ix2 k d := funext fun a => Fin.ext (by
    match a with
    | ⟨0, _⟩ => exact (D₂_rhs0 _ _).trans hk
    | ⟨1, _⟩ => exact D₂_rhs1 _ _)
  rw [el, er]

/-! ## Exponential and square root at an index -/

theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl

/-! ## Reductions along a row -/

/-- The maximum over each row of a `[256, 1024]` array, started from minus infinity. -/
def rowMax (s : FVec Ideal S256x1024 .f32) : FVec Ideal S256 .f32 :=
  multiReduction .maximumf [1] S256 s 0xFF800000#32 reduces_S256x1024_S256 (.inl rfl) rfl

theorem rowMax_apply (s : FVec Ideal S256x1024 .f32) (r : Fin 256) :
    rowMax s (ix1 r) = (Finset.univ : Finset (Fin 1024)).fold max negInf (fun j => s (ix2 r j)) := by
  refine (Ideal.multiReduction_maximumf_single s _ reduces_S256x1024_S256 _ _ (ix1 r)).trans ?_
  have e : (s ∘ reduces_S256x1024_S256.lift (ix1 r)) = fun j : Fin 1024 => s (ix2 r j) :=
    funext fun k => congrArg s (lift_1024 _ r k)
  rw [e]
  rfl

/-- The sum over each row of a `[256, 1024]` array. -/
def rowSum1024 (x : FVec Ideal S256x1024 .f32) : FVec Ideal S256 .f32 :=
  multiReduction .add [1] S256 x 0x00000000#32 reduces_S256x1024_S256 (.inl rfl) rfl

theorem rowSum1024_apply (x : FVec Ideal S256x1024 .f32) (r : Fin 256) :
    rowSum1024 x (ix1 r) = ∑ j : Fin 1024, x (ix2 r j) := by
  refine (Ideal.multiReduction_add_single x _ reduces_S256x1024_S256 _ _ (ix1 r)).trans ?_
  show ∑ k : Fin 1024, x (reduces_S256x1024_S256.lift (ix1 r) k) = _
  exact Finset.sum_congr rfl fun k _ => congrArg x (lift_1024 _ r k)

/-- The sum over each row of a `[256, 768]` array. -/
def rowSum768 (x : FVec Ideal S256x768 .f32) : FVec Ideal S256 .f32 :=
  multiReduction .add [1] S256 x 0x00000000#32 reduces_S256x768_S256 (.inl rfl) rfl

theorem rowSum768_apply (x : FVec Ideal S256x768 .f32) (r : Fin 256) :
    rowSum768 x (ix1 r) = ∑ d : Fin 768, x (ix2 r d) := by
  refine (Ideal.multiReduction_add_single x _ reduces_S256x768_S256 _ _ (ix1 r)).trans ?_
  show ∑ k : Fin 768, x (reduces_S256x768_S256.lift (ix1 r) k) = _
  exact Finset.sum_congr rfl fun k _ => congrArg x (lift_768 _ r k)

/-! ## The softmax of each row of scores -/

/-- Each row's largest score: the maximum over the row started from minus infinity, compared with it once more. -/
def rowPeak (s : FVec Ideal S256x1024 .f32) : FVec Ideal S256 .f32 :=
  maximumf (broadcast S256 (Scalar.ofBits .f32 0xFF800000#32 : Ideal .f32)) (rowMax s)

theorem rowPeak_apply (s : FVec Ideal S256x1024 .f32) (r : Fin 256) :
    rowPeak s (ix1 r) = peak (fun j => s (ix2 r j)) := by
  unfold rowPeak peak
  rw [maximumf_apply, broadcast_apply, rowMax_apply]
  rfl

/-- The exponentials of the scores, each row shifted by its largest one. -/
def expShift (s : FVec Ideal S256x1024 .f32) : FVec Ideal S256x1024 .f32 :=
  exp (subf s (broadcastTo S256x1024 (shapeCast S256x1 (rowPeak s) shapeCasts_S256_S256x1) broadcasts_S256x1_S256x1024))

theorem expShift_apply (s : FVec Ideal S256x1024 .f32) (r : Fin 256) (j : Fin 1024) :
    expShift s (ix2 r j) = shifted (fun j' => s (ix2 r j')) j := by
  unfold expShift shifted
  rw [exp_apply, subf_apply, col_bcast_1024_apply, col_cast_apply, rowPeak_apply]

/-- The softmax weights: the shifted exponentials divided by their row sums. -/
def softmax (s : FVec Ideal S256x1024 .f32) : FVec Ideal S256x1024 .f32 :=
  divf (expShift s) (broadcastTo S256x1024 (shapeCast S256x1 (rowSum1024 (expShift s)) shapeCasts_S256_S256x1)
    broadcasts_S256x1_S256x1024)

theorem softmax_apply (s : FVec Ideal S256x1024 .f32) (r : Fin 256) (j : Fin 1024) :
    softmax s (ix2 r j) = weight (fun j' => s (ix2 r j')) j := by
  unfold softmax weight
  rw [divf_apply, col_bcast_1024_apply, col_cast_apply, rowSum1024_apply, expShift_apply]
  exact congrArg (Ideal.div _) (Finset.sum_congr rfl fun k _ => expShift_apply s r k)

/-! ## A row scaled to unit length -/

/-- Each row divided by its Euclidean length, the length floored. -/
def normalize (o : FVec Ideal S256x768 .f32) : FVec Ideal S256x768 .f32 :=
  divf o (broadcastTo S256x768
    (maximumf (sqrt (shapeCast S256x1 (rowSum768 (mulf o o)) shapeCasts_S256_S256x1))
      (broadcast S256x1 (Scalar.ofBits .f32 0x2B8CBCCC#32 : Ideal .f32)))
    broadcasts_S256x1_S256x768)

theorem normalize_apply (o : FVec Ideal S256x768 .f32) (r : Fin 256) (d : Fin 768) :
    normalize o (ix2 r d)
      = Ideal.div (o (ix2 r d)) (max (Ideal.sqrt (∑ d' : Fin 768, o (ix2 r d') * o (ix2 r d'))) lenFloor) := by
  unfold normalize
  rw [divf_apply, col_bcast_768_apply, maximumf_apply, sqrt_apply, col_cast_apply, broadcast_apply, rowSum768_apply]
  rfl

/-! ## The attention of one block of query rows against the key rows -/

/-- Scores, softmax weights, weighted combination, unit length. -/
def attention (q : FVec Ideal S256x768 .bf16) (kv : FVec Ideal S1024x768 .bf16) : FVec Ideal S256x768 .f32 :=
  normalize (combine (truncf .bf16 (softmax (scores q kv)) bitsLt_bf16_f32) kv)

theorem attention_apply (q : FVec Ideal S256x768 .bf16) (kv : FVec Ideal S1024x768 .bf16) (r : Fin 256) (d : Fin 768) :
    attention q kv (ix2 r d) = unitRow (fun d' => q (ix2 r d')) (fun j d' => kv (ix2 j d')) d := by
  have hs : (fun j' => scores q kv (ix2 r j')) = score (fun d' => q (ix2 r d')) (fun j d' => kv (ix2 j d')) :=
    funext fun j' => scores_apply q kv r j'
  have hb : ∀ d' : Fin 768, combine (truncf .bf16 (softmax (scores q kv)) bitsLt_bf16_f32) kv (ix2 r d')
      = blend (fun d' => q (ix2 r d')) (fun j d' => kv (ix2 j d')) d' := fun d' => by
    rw [combine_apply]
    unfold blend
    refine Finset.sum_congr rfl fun j _ => ?_
    rw [truncf_apply, softmax_apply, hs]
  unfold attention unitRow
  rw [normalize_apply, hb d]
  refine congrArg (fun x => Ideal.div _ (max (Ideal.sqrt x) lenFloor)) ?_
  exact Finset.sum_congr rfl fun d' _ => by rw [hb d']

/-! ## The payloads -/

theorem pay3_apply (v2 : Vec Ideal S1x1024x768 .f32) (j : Fin 1024) (d : Fin 768) :
    k0_pay3 (F := Ideal) v2 (ix2 j d) = v2 (ix3 0 j d) := by
  unfold k0_pay3
  rw [truncf_apply, shapeCast_1ab_ab_apply]

theorem pay4_apply (v9 : Vec Ideal S1x256x768 .f32) (r : Fin 256) (d : Fin 768) :
    k0_pay4 (F := Ideal) v9 (ix2 r d) = v9 (ix3 0 r d) := by
  unfold k0_pay4
  rw [shapeCast_1ab_ab_apply]

theorem pay5_apply (v12 : Vec Ideal S1x256x768 .f32) (r : Fin 256) (d : Fin 768) :
    k0_pay5 (F := Ideal) v12 (ix2 r d) = v12 (ix3 0 r d) := by
  unfold k0_pay5
  rw [shapeCast_1ab_ab_apply]

theorem pay6_apply (v12 : Vec Ideal S1x256x768 .f32) (r : Fin 256) (d : Fin 768) :
    k0_pay6 (F := Ideal) v12 (ix2 r d) = v12 (ix3 0 r d) := by
  unfold k0_pay6
  rw [truncf_apply, pay5_apply]

theorem pay7_eq (v4 : Vec Ideal S1x1024x768 .f32) (v9 : Vec Ideal S1x256x768 .f32) :
    k0_pay7 (F := Ideal) v4 v9 = attention (truncf .bf16 (k0_pay4 v9) bitsLt_bf16_f32) (k0_pay3 v4) := rfl

theorem pay7_apply (v4 : Vec Ideal S1x1024x768 .f32) (v9 : Vec Ideal S1x256x768 .f32) (r : Fin 256) (d : Fin 768) :
    k0_pay7 (F := Ideal) v4 v9 (ix2 r d)
      = unitRow (fun d' => v9 (ix3 0 r d')) (fun j d' => v4 (ix3 0 j d')) d := by
  rw [pay7_eq, attention_apply]
  have hq : (fun d' : Fin 768 => truncf .bf16 (k0_pay4 (F := Ideal) v9) bitsLt_bf16_f32 (ix2 r d')) = fun d' => v9 (ix3 0 r d') :=
    funext fun d' => by rw [truncf_apply, pay4_apply]
  have hk : (fun (j : Fin 1024) (d' : Fin 768) => k0_pay3 (F := Ideal) v4 (ix2 j d')) = fun j d' => v4 (ix3 0 j d') :=
    funext fun j => funext fun d' => pay3_apply v4 j d'
  rw [hq, hk]

theorem pay1_eq (v6 : FVec Ideal S1024x768 .bf16) (v10 : FVec Ideal S256x768 .f32) (v15 : FVec Ideal S256x768 .bf16) :
    k0_pay1 (F := Ideal) v6 v10 v15
      = shapeCast S1x256x768 (addf (attention v15 v6)
          (mulf (broadcast S256x768 (Scalar.ofBits .f32 0x40000000#32 : Ideal .f32)) v10)) shapeCasts_S256x768_S1x256x768 := rfl

theorem pay1_apply (v6 : FVec Ideal S1024x768 .bf16) (v10 : FVec Ideal S256x768 .f32) (v15 : FVec Ideal S256x768 .bf16)
    (r : Fin 256) (d : Fin 768) :
    k0_pay1 (F := Ideal) v6 v10 v15 (ix3 0 r d)
      = unitRow (fun d' => v15 (ix2 r d')) (fun j d' => v6 (ix2 j d')) d + twoLit * v10 (ix2 r d) := by
  rw [pay1_eq, shapeCast_ab_1ab_apply, addf_apply, mulf_apply, broadcast_apply, attention_apply]
  rfl

theorem pay2_apply (v13 v37 v38 : FVec Ideal S256x768 .f32) (r : Fin 256) (d : Fin 768) :
    k0_pay2 (F := Ideal) v13 v37 v38 (ix3 0 r d) = v37 (ix2 r d) + v38 (ix2 r d) * v13 (ix2 r d) := by
  unfold k0_pay2
  rw [shapeCast_ab_1ab_apply, addf_apply, mulf_apply]

theorem pay8_apply (r : Fin 256) (d : Fin 768) : k0_pay8 (F := Ideal) (ix2 r d) = twoLit := rfl

end Cert.KernelIdeal.PayloadValue

end
-- ==== Proof.KernelWhole.lean ====
/-
  The idealized kernel's two result arrays are the specification's two arrays.

  A grid point (b, q) writes back, into rows 256 q … 256 q + 255 of batch entry b of each output array, what
  the body stored: the attention of the tile's query rows over the 1024 key rows of the other image's slab for
  batch entry b, normalized, plus twice the residual rows. Read at an index this is the specification at
  (b, 256 q + r, d): the input blocks are the arrays' slabs for entry b, and the tile's rows are rows 256 q + r.
  The 64 blocks fill each array, so each array ends holding the specification.
-/
import proofs.«158012_j39582418600143_1_alg».proof.Proof.KernelTiles
import proofs.«158012_j39582418600143_1_alg».proof.Proof.PayloadValue
import proofs.«158012_j39582418600143_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.CrossAttention

variable (m : (ℓ : Loc nD τ sig) → Buf (Elt Ideal) ℓ) (ρ : Dev nD → PrngReg)

/-- The first output block at (0, r, d), for input blocks that are batch entry `b`'s slabs of two arrays and a tile
    starting at row `256 q`: the specification with queries from the second array, at (b, 256 q + r, d). -/
theorem first_value (i : grid0.Coords) (x0 x1 : Vec Ideal S1x1024x768 .f32) (A0 A1 : S16x1024x768.Idx → EReal) (b : Fin 16) (q : Nat)
    (hoff : k0_off1 i = ![0, 256 * q, 0])
    (hx0 : ∀ k d, x0 (ix3 0 k d) = A0 (ix3 b k d)) (hx1 : ∀ k d, x1 (ix3 0 k d) = A1 (ix3 b k d))
    (r : Fin 256) (d : Fin 768) (h : 256 * q + r.val < 1024) :
    k0_pay1 (k0_pay3 x0) (k0_pay4 (Found.tileRows i x0)) (k0_pay6 (Found.tileRows i x1)) (ix3 0 r d)
      = attend A1 A0 (ix3 b ⟨256 * q + r.val, h⟩ d) := by
  rw [PayloadValue.pay1_apply]
  have e1 : (fun d' => k0_pay6 (Found.tileRows i x1) (ix2 r d')) = fun d' => A1 (ix3 b ⟨256 * q + r.val, h⟩ d') :=
    funext fun d' => by rw [PayloadValue.pay6_apply, Tiles.tileRows_apply i x1 q hoff r d' h, hx1]
  have e2 : (fun j d' => k0_pay3 x0 (ix2 j d')) = fun j d' => A0 (ix3 b j d') :=
    funext fun j => funext fun d' => by rw [PayloadValue.pay3_apply, hx0]
  have e3 : k0_pay4 (Found.tileRows i x0) (ix2 r d) = A0 (ix3 b ⟨256 * q + r.val, h⟩ d) := by
    rw [PayloadValue.pay4_apply, Tiles.tileRows_apply i x0 q hoff r d h, hx0]
  rw [e1, e2, e3]
  rfl

/-- The second output block likewise: the specification with queries from the first array. -/
theorem second_value (i : grid0.Coords) (x0 x1 : Vec Ideal S1x1024x768 .f32) (A0 A1 : S16x1024x768.Idx → EReal) (b : Fin 16) (q : Nat)
    (hoff : k0_off1 i = ![0, 256 * q, 0])
    (hx0 : ∀ k d, x0 (ix3 0 k d) = A0 (ix3 b k d)) (hx1 : ∀ k d, x1 (ix3 0 k d) = A1 (ix3 b k d))
    (r : Fin 256) (d : Fin 768) (h : 256 * q + r.val < 1024) :
    k0_pay2 (k0_pay5 (Found.tileRows i x1)) (k0_pay7 x1 (Found.tileRows i x0)) (k0_pay8 (F := Ideal)) (ix3 0 r d)
      = attend A0 A1 (ix3 b ⟨256 * q + r.val, h⟩ d) := by
  rw [PayloadValue.pay2_apply, PayloadValue.pay7_apply, PayloadValue.pay8_apply, PayloadValue.pay5_apply]
  have e1 : (fun d' => Found.tileRows i x0 (ix3 0 r d')) = fun d' => A0 (ix3 b ⟨256 * q + r.val, h⟩ d') :=
    funext fun d' => by rw [Tiles.tileRows_apply i x0 q hoff r d' h, hx0]
  have e2 : (fun j d' => x1 (ix3 0 j d')) = fun j d' => A1 (ix3 b j d') :=
    funext fun j => funext fun d' => hx1 j d'
  have e3 : Found.tileRows i x1 (ix3 0 r d) = A1 (ix3 b ⟨256 * q + r.val, h⟩ d) := by
    rw [Tiles.tileRows_apply i x1 q hoff r d h, hx1]
  rw [e1, e2, e3]
  rfl

/-- What point `t` writes back to the first output array is its block of the specification. -/
theorem flushed_first (c : Dev nD) (t : Fin cfg0.N) :
    (dats m 0 c).flushed 2 t = ((cfg0.win 2).blk t).view.read (Elt Ideal) (attend (V m c main_arg1) (V m c main_arg0)) := by
  rw [Value.flushed2_A, Found.first_block]
  obtain ⟨-, -, -, -, -, -, -, -, -, -, hb, hq, -⟩ := Tiles.idx_facts t
  funext j
  obtain ⟨r, d, rfl⟩ : ∃ (r : Fin 256) (d : Fin 768), j = (ix3 (0 : Fin 1) r d : S1x256x768.Idx) :=
    ⟨j 1, j 2, (eq_ix3 j).trans (by rw [Fin.fin_one_eq_zero (j 0)]; rfl)⟩
  rw [View.read_apply, Tiles.out2_emb t ⟨win0_2.index t (0 : Fin 3), by omega⟩ rfl _ rfl r d (by omega)]
  exact first_value (grid0.coords t) _ _ _ _ _ _ (Tiles.tile_off t) (Tiles.block0_apply m c t _ rfl) (Tiles.block1_apply m c t _ rfl) r d _

/-- What point `t` writes back to the second output array is its block of the specification. -/
theorem flushed_second (c : Dev nD) (t : Fin cfg0.N) :
    (dats m 0 c).flushed 3 t = ((cfg0.win 3).blk t).view.read (Elt Ideal) (attend (V m c main_arg0) (V m c main_arg1)) := by
  rw [Value.flushed3_A, Found.second_block]
  obtain ⟨-, -, -, -, -, -, -, -, -, -, hb, hq, -⟩ := Tiles.idx_facts t
  funext j
  obtain ⟨r, d, rfl⟩ : ∃ (r : Fin 256) (d : Fin 768), j = (ix3 (0 : Fin 1) r d : S1x256x768.Idx) :=
    ⟨j 1, j 2, (eq_ix3 j).trans (by rw [Fin.fin_one_eq_zero (j 0)]; rfl)⟩
  rw [View.read_apply, Tiles.out3_emb t ⟨win0_2.index t (0 : Fin 3), by omega⟩ rfl _ rfl r d (by omega)]
  exact second_value (grid0.coords t) _ _ _ _ _ _ (Tiles.tile_off t) (Tiles.block0_apply m c t _ rfl) (Tiles.block1_apply m c t _ rfl) r d _

/-- The first output array after the run. -/
theorem final_first (c : Dev nD) :
    (dats m 0 c).arrAt 2 cfg0.N = attend (m ((c : Thread nD τ).loc main_arg1)) (m ((c : Thread nD τ).loc main_arg0)) :=
  (dats m 0 c).arrAt_eq_of_cover 2 (attend (V m c main_arg1) (V m c main_arg0)) (fun t _ => flushed_first m c t) Tiles.cover2

/-- The second output array after the run. -/
theorem final_second (c : Dev nD) :
    (dats m 0 c).arrAt 3 cfg0.N = attend (m ((c : Thread nD τ).loc main_arg0)) (m ((c : Thread nD τ).loc main_arg1)) :=
  (dats m 0 c).arrAt_eq_of_cover 3 (attend (V m c main_arg0) (V m c main_arg1)) (fun t _ => flushed_second m c t) Tiles.cover3

/-- The run of the idealized kernel: both result arrays at the specification, the arguments unchanged. -/
theorem run : θ_run defs (onTc (τ := τ) (main (F := Ideal))) ⟨m, fun _ => 0, ρ⟩ fun r => ∀ c : Dev nD,
      r.2.mem ((c : Thread nD τ).loc main_v0_0) = attend (m ((c : Thread nD τ).loc main_arg1)) (m ((c : Thread nD τ).loc main_arg0))
      ∧ r.2.mem ((c : Thread nD τ).loc main_v0_1) = attend (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_first m c), (h c).2.1.trans (final_second m c), (h c).2.2.1, (h c).2.2.2⟩)
    (Value.run_blocks m ρ)

end Cert.KernelIdeal.Whole

end
-- ==== Proof.lean ====
/-
  Bidirectional cross attention with a doubled residual: the tiled kernel against the plain reference.

  Both programs take two arrays of 16 batch entries × 1024 rows × 768 features. For each batch entry and each
  row of one image they score the row against every row of the other image, turn the scores into softmax
  weights, combine the other image's rows with those weights, scale the combination to unit Euclidean length
  (the length floored at 1e-12), and add the residual. The kernel works tile by tile — 256 query rows at a time
  against the batch entry's whole slab, on a 16 × 4 grid — and adds twice the residual row; the reference works on
  whole arrays and adds the residual row two times.

  On the extended reals every operation is the exact one, a change of float format is the identity, and a
  contraction or a row reduction is a sum or a maximum over an index set whatever the tiling. So each side is
  the one function `Cert.CrossAttention.attend` of the argument arrays, index by index (for the kernel:
  the block a grid point writes back is that function's block, and the 64 blocks fill the array); the only
  algebraic law between the two texts is that adding a value twice is adding its double, which holds for every
  extended real, the infinities included, so the finiteness of the inputs is never used.

  The idealization rewrote no operation of the kernel, so the kernel's idealized form is its own text read on
  the extended reals and there is nothing to preserve beyond that.
-/
import proofs.«158012_j39582418600143_1_alg».proof.Defs
import proofs.«158012_j39582418600143_1_alg».proof.Proof.Gen.Kernel
import proofs.«158012_j39582418600143_1_alg».proof.Proof.Gen.Kernel.Skeleton
import proofs.«158012_j39582418600143_1_alg».proof.Proof.Gen.Kernel.Launch
import proofs.«158012_j39582418600143_1_alg».proof.Proof.Gen.Kernel.Points
import proofs.«158012_j39582418600143_1_alg».proof.Proof.Gen.Kernel.Frame
import proofs.«158012_j39582418600143_1_alg».proof.Proof.Gen.KernelIdeal
import proofs.«158012_j39582418600143_1_alg».proof.Proof.Gen.KernelIdeal.Skeleton
import proofs.«158012_j39582418600143_1_alg».proof.Proof.Gen.KernelIdeal.Launch
import proofs.«158012_j39582418600143_1_alg».proof.Proof.Gen.KernelIdeal.Points
import proofs.«158012_j39582418600143_1_alg».proof.Proof.Gen.KernelIdeal.Frame
import proofs.«158012_j39582418600143_1_alg».proof.Proof.Gen.ReferenceIdeal
import proofs.«158012_j39582418600143_1_alg».proof.Proof.Gen.Pre_finite_inputs
import proofs.«158012_j39582418600143_1_alg».proof.Proof.Gen.KernelIdeal.Value
import proofs.«158012_j39582418600143_1_alg».proof.Proof.Gen.ReferenceIdeal.Run
import proofs.«158012_j39582418600143_1_alg».proof.Proof.Gen.ReferenceIdeal.Read
import proofs.«158012_j39582418600143_1_alg».proof.Proof.Spec
import proofs.«158012_j39582418600143_1_alg».proof.Proof.RefValue
import proofs.«158012_j39582418600143_1_alg».proof.Proof.KernelWhole
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of array operations: its run ends with the arguments as they were. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten when it was read on the extended reals. -/
theorem preserves : Cert.preserves_Kernel_KernelIdeal := trivial

/-- From arguments that agree, the kernel's two result arrays and the reference's are the same two functions of
    the arguments: queries from the second image over the first image's rows, and the other way round. -/
theorem algebraic : Cert.algebraic_KernelIdeal_ReferenceIdeal := by
  intro m ρ m' ρ' _ hagree
  refine ⟨fun c => Cert.CrossAttention.attend (m ((c.tc : Thread _ _).loc Cert.KernelIdeal.main_arg1)) (m ((c.tc : Thread _ _).loc Cert.KernelIdeal.main_arg0)),
    fun c => Cert.CrossAttention.attend (m ((c.tc : Thread _ _).loc Cert.KernelIdeal.main_arg0)) (m ((c.tc : Thread _ _).loc Cert.KernelIdeal.main_arg1)),
    Cert.KernelIdeal.Whole.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v44_eq, Cert.ReferenceIdeal.RefValue.out1_eq, (hagree c).1, (hagree c).2]
  · rw [Cert.ReferenceIdeal.Read.val_main_v45_eq, Cert.ReferenceIdeal.RefValue.out2_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
